-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x188x8192 : Shape := ⟨3, ![64, 188, 8192]⟩
abbrev S64 : Shape := ⟨1, ![64]⟩
abbrev S_ : Shape := ⟨0, ![]⟩

class Facts : Prop where
  bcast_S_S64x188x8192 : S_.BroadcastsInDim S64x188x8192 (![] : Fin 0 → Fin S64x188x8192.rank)
  reducesTo_S64x188x8192_S_d0_1_2 : S64x188x8192.ReducesTo [0, 1, 2] S_
  h_S_ : 0 < S_.numel

variable [Facts]

def fn {F : FTy → Type} [FloatOps F] (main_arg0 : FVec F S64x188x8192 .f32) (main_arg1 : IVec S64x188x8192 32) (main_arg2 : IVec S64 32) : IVec S_ 1 :=
  let main_v0 : FVec F S64x188x8192 .f32 := Host.absf main_arg0
  let main_cst : FVec F S_ .f32 := constant S_ .f32 0x7F800000#32
  let main_v1 : FVec F S64x188x8192 .f32 := broadcastInDim S64x188x8192 ![] bcast_S_S64x188x8192 main_cst
  let main_v2 : IVec S64x188x8192 1 := cmpf .olt main_v0 main_v1
  let main_c : IVec S_ 1 := constantI S_ 1 1#1
  let main_v3 : IVec S_ 1 := (fun x v => Host.reduce IntOp.andi x v reducesTo_S64x188x8192_S_d0_1_2 h_S_) main_v2 main_c
  main_v3
-- ==== Kernel.lean ====
abbrev S64x188x8192 : Shape := ⟨3, ![64, 188, 8192]⟩
abbrev S64 : Shape := ⟨1, ![64]⟩
abbrev S188 : Shape := ⟨1, ![188]⟩
abbrev S1x188 : Shape := ⟨2, ![1, 188]⟩
abbrev S64x1 : Shape := ⟨2, ![64, 1]⟩
abbrev S64x188 : Shape := ⟨2, ![64, 188]⟩
abbrev S8x188 : Shape := ⟨2, ![8, 188]⟩
abbrev S8x188x512 : Shape := ⟨3, ![8, 188, 512]⟩
abbrev S_ : Shape := ⟨0, ![]⟩
abbrev S1 : Shape := ⟨1, ![1]⟩

abbrev nBuf : Space → Nat
  | .hbm => 18
  | .vmem => 10
  | .smem => 0
  | _ => 0

abbrev bufTy : (tb : Table) → Fin (tcTables nBuf tb) → BufTy
  | .hbm, ⟨0, _⟩ => ⟨S64x188x8192, .f32⟩
  | .hbm, ⟨1, _⟩ => ⟨S64x188x8192, .i32⟩
  | .hbm, ⟨2, _⟩ => ⟨S64, .i32⟩
  | .hbm, ⟨3, _⟩ => ⟨S188, .i32⟩
  | .hbm, ⟨4, _⟩ => ⟨S1x188, .i32⟩
  | .hbm, ⟨5, _⟩ => ⟨S64x1, .i32⟩
  | .hbm, ⟨6, _⟩ => ⟨S64x188, .i32⟩
  | .hbm, ⟨7, _⟩ => ⟨S64x188, .i32⟩
  | .hbm, ⟨8, _⟩ => ⟨S64x188, .i1⟩
  | .hbm, ⟨9, _⟩ => ⟨S64x188, .f32⟩
  | .hbm, ⟨10, _⟩ => ⟨S64x188, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S1, .f32⟩
  | .local _ .vmem, ⟨0, _⟩ => ⟨S8x188, .f32⟩
  | .local _ .vmem, ⟨1, _⟩ => ⟨S8x188, .f32⟩
  | .local _ .vmem, ⟨2, _⟩ => ⟨S8x188x512, .f32⟩
  | .local _ .vmem, ⟨3, _⟩ => ⟨S8x188x512, .f32⟩
  | .local _ .vmem, ⟨4, _⟩ => ⟨S8x188x512, .i32⟩
  | .local _ .vmem, ⟨5, _⟩ => ⟨S8x188x512, .i32⟩
  | .local _ .vmem, ⟨6, _⟩ => ⟨S8x188, .f32⟩
  | .local _ .vmem, ⟨7, _⟩ => ⟨S8x188, .f32⟩
  | .local _ .vmem, ⟨8, _⟩ => ⟨S8x188, .f32⟩
  | .local _ .vmem, ⟨9, _⟩ => ⟨S8x188, .f32⟩
  | _, _ => ⟨S64x188x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst : Ref sig .tc := ⟨.hbm, 11, rfl⟩
abbrev main_v8 : Ref sig .tc := ⟨.hbm, 12, rfl⟩
abbrev main_cst_0 : Ref sig .tc := ⟨.hbm, 13, rfl⟩
abbrev main_v9 : Ref sig .tc := ⟨.hbm, 14, rfl⟩
abbrev main_cst_1 : Ref sig .tc := ⟨.hbm, 15, rfl⟩
abbrev main_v10 : Ref sig .tc := ⟨.hbm, 16, rfl⟩
abbrev main_v11 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 16], ![false, false]⟩

def k0_cond2 (i : grid0.Coords) : BitVec 1 :=
  let arg1 : BitVec 32 := BitVec.ofNat 32 (i 1).val
  let c15_i32 : BitVec 32 := 15#32
  let v29 : BitVec 1 := Scalar.cmpi .eq arg1 c15_i32
  let v30 : BitVec 32 := Scalar.extui v29
  let c0_i32_18 : BitVec 32 := 0#32
  let v31 : BitVec 1 := Scalar.cmpi .ne v30 c0_i32_18
  v31

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S8x188 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S8x188x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x188x512 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S8x188 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  bcast_S188_S1x188_1 : S188.BroadcastsInDim S1x188 (![1] : Fin 1 → Fin S1x188.rank)
  bcast_S64_S64x1_0 : S64.BroadcastsInDim S64x1 (![0] : Fin 1 → Fin S64x1.rank)
  bcast_S1x188_S64x188_0_1 : S1x188.BroadcastsInDim S64x188 (![0, 1] : Fin 2 → Fin S64x188.rank)
  bcast_S64x1_S64x188_0_1 : S64x1.BroadcastsInDim S64x188 (![0, 1] : Fin 2 → Fin S64x188.rank)
  inb_S8x188_S8x188_0_0 : ∀ a, (![0, 0] : Fin 2 → Nat) a + S8x188.size a ≤ S8x188.size a
  h_S8x188 : 0 < S8x188.numel
  shapeCasts_S8x188_S8x188 : S8x188.ShapeCasts S8x188
  inb_S8x188x512_S8x188x512_0_0_0 : ∀ a, (![0, 0, 0] : Fin 3 → Nat) a + S8x188x512.size a ≤ S8x188x512.size a
  h_S8x188x512 : 0 < S8x188x512.numel
  natLt_1_32 : 1 < 32
  reduces_S8x188x512_S8x188 : S8x188x512.Reduces [2] S8x188
  reducesTo_S64x188_S_d0_1 : S64x188.ReducesTo [0, 1] S_
  h_S_ : 0 < S_.numel
  shapeCasts_S_S1 : S_.ShapeCasts S1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x188.size a ≤ S64x188.size a
  hwx0_0 : ∀ i : grid0.Coords, EltTy.bits .f32 = 32 ∨ (Rect.block (s := S64x188) S8x188.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x188x512.size a ≤ S64x188x8192.size a
  hwx0_1 : ∀ i : grid0.Coords, EltTy.bits .f32 = 32 ∨ (Rect.block (s := S64x188x8192) S8x188x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x188x512.size a ≤ S64x188x8192.size a
  hwx0_2 : ∀ i : grid0.Coords, EltTy.bits .i32 = 32 ∨ (Rect.block (s := S64x188x8192) S8x188x512.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8x188.size a ≤ S64x188.size a
  hwx0_3 : ∀ i : grid0.Coords, EltTy.bits .f32 = 32 ∨ (Rect.block (s := S64x188) S8x188.size (cc0_transform_3 i) (hinb0_3 i)).WholeWords (EltTy.packing .f32)

variable [Facts₀]

abbrev win0_0 : Pipeline.Window sig grid0 :=
  Pipeline.Window.ofSpec (Memref.whole main_v6) S8x188.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S8x188x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S8x188x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v7) S8x188.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S64x188x8192 : Shape := ⟨3, ![64, 188, 8192]⟩
abbrev S64 : Shape := ⟨1, ![64]⟩
abbrev S188 : Shape := ⟨1, ![188]⟩
abbrev S1x188 : Shape := ⟨2, ![1, 188]⟩
abbrev S64x1 : Shape := ⟨2, ![64, 1]⟩
abbrev S64x188 : Shape := ⟨2, ![64, 188]⟩
abbrev S_ : Shape := ⟨0, ![]⟩
abbrev S1 : Shape := ⟨1, ![1]⟩

abbrev nBuf : Space → Nat
  | .hbm => 35
  | .vmem => 0
  | .smem => 0
  | _ => 0

abbrev bufTy : (tb : Table) → Fin (tcTables nBuf tb) → BufTy
  | .hbm, ⟨0, _⟩ => ⟨S64x188x8192, .f32⟩
  | .hbm, ⟨1, _⟩ => ⟨S64x188x8192, .i32⟩
  | .hbm, ⟨2, _⟩ => ⟨S64, .i32⟩
  | .hbm, ⟨3, _⟩ => ⟨S188, .i32⟩
  | .hbm, ⟨4, _⟩ => ⟨S1x188, .i32⟩
  | .hbm, ⟨5, _⟩ => ⟨S64x1, .i32⟩
  | .hbm, ⟨6, _⟩ => ⟨S64x188, .i32⟩
  | .hbm, ⟨7, _⟩ => ⟨S64x188, .i32⟩
  | .hbm, ⟨8, _⟩ => ⟨S64x188, .i1⟩
  | .hbm, ⟨9, _⟩ => ⟨S64x188, .f32⟩
  | .hbm, ⟨10, _⟩ => ⟨S_, .i32⟩
  | .hbm, ⟨11, _⟩ => ⟨S64x188x8192, .i32⟩
  | .hbm, ⟨12, _⟩ => ⟨S64x188x8192, .i1⟩
  | .hbm, ⟨13, _⟩ => ⟨S64x188x8192, .f32⟩
  | .hbm, ⟨14, _⟩ => ⟨S64x188x8192, .f32⟩
  | .hbm, ⟨15, _⟩ => ⟨S64x188x8192, .f32⟩
  | .hbm, ⟨16, _⟩ => ⟨S_, .f32⟩
  | .hbm, ⟨17, _⟩ => ⟨S64x188, .f32⟩
  | .hbm, ⟨18, _⟩ => ⟨S_, .f32⟩
  | .hbm, ⟨19, _⟩ => ⟨S64x188x8192, .f32⟩
  | .hbm, ⟨20, _⟩ => ⟨S64x188x8192, .f32⟩
  | .hbm, ⟨21, _⟩ => ⟨S64x188x8192, .f32⟩
  | .hbm, ⟨22, _⟩ => ⟨S64x188x8192, .f32⟩
  | .hbm, ⟨23, _⟩ => ⟨S64x188x8192, .f32⟩
  | .hbm, ⟨24, _⟩ => ⟨S_, .f32⟩
  | .hbm, ⟨25, _⟩ => ⟨S64x188, .f32⟩
  | .hbm, ⟨26, _⟩ => ⟨S64x188, .f32⟩
  | .hbm, ⟨27, _⟩ => ⟨S64x188, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S1, .f32⟩
  | _, _ => ⟨S64x188x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_c : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst : Ref sig .tc := ⟨.hbm, 16, rfl⟩
abbrev main_v12 : Ref sig .tc := ⟨.hbm, 17, rfl⟩
abbrev main_cst_0 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_cst_1 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_cst_2 : Ref sig .tc := ⟨.hbm, 28, rfl⟩
abbrev main_v21 : Ref sig .tc := ⟨.hbm, 29, rfl⟩
abbrev main_cst_3 : Ref sig .tc := ⟨.hbm, 30, rfl⟩
abbrev main_v22 : Ref sig .tc := ⟨.hbm, 31, rfl⟩
abbrev main_cst_4 : Ref sig .tc := ⟨.hbm, 32, rfl⟩
abbrev main_v23 : Ref sig .tc := ⟨.hbm, 33, rfl⟩
abbrev main_v24 : Ref sig .tc := ⟨.hbm, 34, rfl⟩

abbrev nD : Nat := 1
abbrev τ : Topo := Topo.v7x

variable {F : FTy → Type} [FloatOps F]

class Facts₀ : Prop where
  bcast_S188_S1x188_1 : S188.BroadcastsInDim S1x188 (![1] : Fin 1 → Fin S1x188.rank)
  bcast_S64_S64x1_0 : S64.BroadcastsInDim S64x1 (![0] : Fin 1 → Fin S64x1.rank)
  bcast_S1x188_S64x188_0_1 : S1x188.BroadcastsInDim S64x188 (![0, 1] : Fin 2 → Fin S64x188.rank)
  bcast_S64x1_S64x188_0_1 : S64x1.BroadcastsInDim S64x188 (![0, 1] : Fin 2 → Fin S64x188.rank)
  bcast_S_S64x188x8192 : S_.BroadcastsInDim S64x188x8192 (![] : Fin 0 → Fin S64x188x8192.rank)
  reducesTo_S64x188x8192_S64x188_d2 : S64x188x8192.ReducesTo [2] S64x188
  h_S_ : 0 < S_.numel
  reducesTo_S64x188_S_d0_1 : S64x188.ReducesTo [0, 1] S_
  shapeCasts_S_S1 : S_.ShapeCasts S1

variable [Facts₀]

class Facts : Prop extends Facts₀ where

variable [Facts]
-- ==== Proof.Pieces.lean ====
/-
  What one run of the body leaves in its two running sums and in its output block, as pure values.

  The body keeps two accumulators over the vocabulary axis, one summing the terms of the positive labels
  and one those of the negative labels. At the first vocabulary tile it zeroes both and adds the tile's two
  partial sums; at a later tile it adds the tile's partial sums to what the tile before left; at the last
  tile it moreover stores the mask times the two finished sums into the output block. Every load and store
  of the body goes through a whole buffer, so each stored value is read back unchanged.
-/
import proofs.«179755_j40346922779396_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.PairRank.Kernel

open Cert.KernelIdeal Cert.KernelIdeal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

variable (c : Dev nD) (i : grid0.Coords)
  (a2 : Memref sig .tc .vmem S8x188 .f32) (h2 : a2.IsWhole)
  (a3 : Memref sig .tc .vmem S8x188x512 .f32) (h3 : a3.IsWhole)
  (a4 : Memref sig .tc .vmem S8x188x512 .i32) (h4 : a4.IsWhole)
  (a5 : Memref sig .tc .vmem S8x188 .f32) (h5 : a5.IsWhole)
  (a6 : Memref sig .tc .vmem S8x188 .f32) (h6 : a6.IsWhole)
  (a7 : Memref sig .tc .vmem S8x188 .f32) (h7 : a7.IsWhole)

/-! ## The first tile: both accumulators start from the zero block -/

section First
variable (hc0 : cond0_0 i) (hc1 : ¬cond0_1 i)
  (x0 : Vec F S8x188 .f32) (x1 : Vec F S8x188x512 .f32) (x2 : Vec F S8x188x512 .i32)

/-- The positive accumulator after the first tile: the zero block plus the tile's partial sum. -/
theorem pos_first : sout0_A_0 c i a2 h2 a3 h3 a4 h4 a5 h5 a6 h6 a7 h7 hc0 hc1 x0 x1 x2 = k0_pay5 x1 x2 k0_pay2 := by
  unfold sout0_A_0
  rw [View.read_writes_eq_canon _ _ _ (scover0_A_0 c i a2 h2 a3 h3 a4 h4 a5 h5 a6 h6 a7 h7 hc0 hc1 x0 x1 x2)]
  unfold kernelRun0_A
  dsimp only
  sl_unfold_words
  rw [View.canon_cons_unit_zero (S := S8x188) hz2, View.readCov_unit_zero (S := S8x188) _ hz2]
  simp only [View.readAt_eq_ld, h3.read_unread, h4.read_unread, View.ld_unit_zero (S := S8x188x512) hz3,
    View.ld_unit_zero (S := S8x188) hz2]

/-- The negative accumulator after the first tile. -/
theorem neg_first : sout0_A_1 c i a2 h2 a3 h3 a4 h4 a5 h5 a6 h6 a7 h7 hc0 hc1 x0 x1 x2 = k0_pay6 x1 x2 k0_pay3 := by
  unfold sout0_A_1
  rw [View.read_writes_eq_canon _ _ _ (scover0_A_1 c i a2 h2 a3 h3 a4 h4 a5 h5 a6 h6 a7 h7 hc0 hc1 x0 x1 x2)]
  unfold kernelRun0_A
  dsimp only
  sl_unfold_words
  rw [View.canon_cons_unit_zero (S := S8x188) hz2, View.readCov_unit_zero (S := S8x188) _ hz2]
  simp only [View.readAt_eq_ld, h3.read_unread, h4.read_unread, View.ld_unit_zero (S := S8x188x512) hz3,
    View.ld_unit_zero (S := S8x188) hz2]

end First

/-! ## A middle tile: each accumulator grows by the tile's partial sum -/

section Middle
variable (hc0 : ¬cond0_0 i) (hc1 : ¬cond0_1 i)
  (x0 : Vec F S8x188 .f32) (x1 : Vec F S8x188x512 .f32) (x2 : Vec F S8x188x512 .i32) (xs0 xs1 : Vec F S8x188 .f32)

/-- The positive accumulator after a middle tile. -/
theorem pos_middle : sout0_B_0 c i a2 h2 a3 h3 a4 h4 a5 h5 a6 h6 a7 h7 hc0 hc1 x0 x1 x2 xs0 xs1 = k0_pay5 x1 x2 xs0 := by
  unfold sout0_B_0
  rw [View.read_writes_eq_canon _ _ _ (scover0_B_0 c i a2 h2 a3 h3 a4 h4 a5 h5 a6 h6 a7 h7 hc0 hc1 x0 x1 x2 xs0 xs1)]
  unfold kernelRun0_B
  dsimp only
  rw [View.canon_unit_zero hz2]
  simp only [View.readAt_eq_ld, h3.read_unread, h4.read_unread, h6.read_unread, View.ld_unit_zero (S := S8x188x512) hz3,
    View.ld_unit_zero (S := S8x188) hz2]

/-- The negative accumulator after a middle tile. -/
theorem neg_middle : sout0_B_1 c i a2 h2 a3 h3 a4 h4 a5 h5 a6 h6 a7 h7 hc0 hc1 x0 x1 x2 xs0 xs1 = k0_pay6 x1 x2 xs1 := by
  unfold sout0_B_1
  rw [View.read_writes_eq_canon _ _ _ (scover0_B_1 c i a2 h2 a3 h3 a4 h4 a5 h5 a6 h6 a7 h7 hc0 hc1 x0 x1 x2 xs0 xs1)]
  unfold kernelRun0_B
  dsimp only
  rw [View.canon_unit_zero hz2]
  simp only [View.readAt_eq_ld, h3.read_unread, h4.read_unread, h7.read_unread, View.ld_unit_zero (S := S8x188x512) hz3,
    View.ld_unit_zero (S := S8x188) hz2]

end Middle

/-! ## The last tile: the accumulators grow once more, and the output block is the mask times both -/

section Last
variable (hc0 : ¬cond0_0 i) (hc1 : cond0_1 i)
  (x0 : Vec F S8x188 .f32) (x1 : Vec F S8x188x512 .f32) (x2 : Vec F S8x188x512 .i32) (xs0 xs1 : Vec F S8x188 .f32)

/-- The positive accumulator after the last tile. -/
theorem pos_last : sout0_C_0 c i a2 h2 a3 h3 a4 h4 a5 h5 a6 h6 a7 h7 hc0 hc1 x0 x1 x2 xs0 xs1 = k0_pay5 x1 x2 xs0 := by
  unfold sout0_C_0
  rw [View.read_writes_eq_canon _ _ _ (scover0_C_0 c i a2 h2 a3 h3 a4 h4 a5 h5 a6 h6 a7 h7 hc0 hc1 x0 x1 x2 xs0 xs1)]
  unfold kernelRun0_C
  dsimp only
  sl_unfold_words
  rw [View.canon_unit_zero hz2]
  simp only [View.readAt_eq_ld, h3.read_unread, h4.read_unread, h6.read_unread, View.ld_unit_zero (S := S8x188x512) hz3,
    View.ld_unit_zero (S := S8x188) hz2]

/-- The negative accumulator after the last tile. -/
theorem neg_last : sout0_C_1 c i a2 h2 a3 h3 a4 h4 a5 h5 a6 h6 a7 h7 hc0 hc1 x0 x1 x2 xs0 xs1 = k0_pay6 x1 x2 xs1 := by
  unfold sout0_C_1
  rw [View.read_writes_eq_canon _ _ _ (scover0_C_1 c i a2 h2 a3 h3 a4 h4 a5 h5 a6 h6 a7 h7 hc0 hc1 x0 x1 x2 xs0 xs1)]
  unfold kernelRun0_C
  dsimp only
  sl_unfold_words
  rw [View.canon_unit_zero hz2]
  simp only [View.readAt_eq_ld, h3.read_unread, h4.read_unread, h7.read_unread, View.ld_unit_zero (S := S8x188x512) hz3,
    View.ld_unit_zero (S := S8x188) hz2]

/-- The output block after the last tile: the mask block times the two finished accumulators, each read back
    as the last tile just stored it. -/
theorem out_last :
    out0_C_3 c i a2 h2 a3 h3 a4 h4 a5 h5 a6 h6 a7 h7 hc0 hc1 x0 x1 x2 xs0 xs1 = k0_pay1 x0 (k0_pay5 x1 x2 xs0) (k0_pay6 x1 x2 xs1) := by
  unfold out0_C_3
  rw [View.read_writes_eq_canon _ _ _ (cover0_C_3 c i a2 h2 a3 h3 a4 h4 a5 h5 a6 h6 a7 h7 hc0 hc1 x0 x1 x2 xs0 xs1)]
  unfold kernelRun0_C
  dsimp only
  sl_unfold_words
  rw [View.canon_unit_zero hz2]
  simp only [View.readCov_unit_zero (S := S8x188) _ hz2, View.readAt_eq_ld, h2.read_unread, h3.read_unread,
    h4.read_unread, h6.read_unread, h7.read_unread, View.ld_unit_zero (S := S8x188x512) hz3,
    View.ld_unit_zero (S := S8x188) hz2]

end Last

end Cert.PairRank.Kernel
end
-- ==== Proof.Carry.lean ====
/-
  The two accumulators and the output block after each grid point, from what the point before left.

  The grid is 8 batch tiles by 16 vocabulary tiles, walked vocabulary-fastest: point `t` is vocabulary tile
  `t mod 16` of batch tile `t / 16`. At tile 0 the accumulators restart from the zero block; at every later tile
  they grow from what the point before left; at tile 15 the output block is stored.
-/
import proofs.«179755_j40346922779396_1_alg».proof.Proof.Pieces
import Idealize.ShloMosaic.Lib.ValueIdx

noncomputable section

open Idealize.ShloMosaic Idealize.ShloMosaic.TcCoe Idealize.SL.Sem Idealize.ShloMosaic.ValueIdx
open scoped BigOperators

namespace Cert.PairRank.Kernel

open Cert.KernelIdeal Cert.KernelIdeal.Gen Cert.PairRank

variable {F : FTy → Type} [FloatOps F]
variable (m : (ℓ : Loc nD τ sig) → Buf (Elt F) ℓ) (c : Dev nD) (t : Fin cfg0.N)

/-- At a batch tile's first vocabulary tile the positive accumulator is the zero block plus the tile's sum. -/
theorem first_pos (h0 : t.val % 16 = 0) (h1 : ¬t.val % 16 = 15) :
    (outsAt0 m c t.val t.isLt).2.1 = k0_pay5 (iblk m c 1 t) (iblk m c 2 t) k0_pay2 := by
  rw [outsAt0_A m c t h0 h1]
  exact pos_first c (grid0.coords t) (ms0_0 t) (hs0_0 t) (ms0_1 t) (hs0_1 t) (ms0_2 t) (hs0_2 t) (ms0_3 t) (hs0_3 t) scM0_0 (Memref.isWhole_whole _) scM0_1 (Memref.isWhole_whole _) ((hcond0_0 t).mpr h0) (fun h => h1 ((hcond0_1 t).mp h)) (iblk m c 0 t) (iblk m c 1 t) (iblk m c 2 t)

theorem first_neg (h0 : t.val % 16 = 0) (h1 : ¬t.val % 16 = 15) :
    (outsAt0 m c t.val t.isLt).2.2 = k0_pay6 (iblk m c 1 t) (iblk m c 2 t) k0_pay3 := by
  rw [outsAt0_A m c t h0 h1]
  exact neg_first c (grid0.coords t) (ms0_0 t) (hs0_0 t) (ms0_1 t) (hs0_1 t) (ms0_2 t) (hs0_2 t) (ms0_3 t) (hs0_3 t) scM0_0 (Memref.isWhole_whole _) scM0_1 (Memref.isWhole_whole _) ((hcond0_0 t).mpr h0) (fun h => h1 ((hcond0_1 t).mp h)) (iblk m c 0 t) (iblk m c 1 t) (iblk m c 2 t)

/-- At every later vocabulary tile the positive accumulator is what the point before left plus the tile's sum. -/
theorem later_pos (h0 : ¬t.val % 16 = 0) :
    (outsAt0 m c t.val t.isLt).2.1 = k0_pay5 (iblk m c 1 t) (iblk m c 2 t) (outsAt0 m c (t.val - 1) (Nat.lt_of_le_of_lt (Nat.sub_le _ _) t.isLt)).2.1 := by
  by_cases h1 : t.val % 16 = 15
  · rw [outsAt0_C m c t h0 h1]
    exact pos_last c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2.1 (outsAt0 m c (t.val - 1) (Nat.lt_of_le_of_lt (Nat.sub_le _ _) t.isLt)).2.2
  · rw [outsAt0_B m c t h0 h1]
    exact pos_middle c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (outsAt0 m c (t.val - 1) (Nat.lt_of_le_of_lt (Nat.sub_le _ _) t.isLt)).2.1 (outsAt0 m c (t.val - 1) (Nat.lt_of_le_of_lt (Nat.sub_le _ _) t.isLt)).2.2

theorem later_neg (h0 : ¬t.val % 16 = 0) :
    (outsAt0 m c t.val t.isLt).2.2 = k0_pay6 (iblk m c 1 t) (iblk m c 2 t) (outsAt0 m c (t.val - 1) (Nat.lt_of_le_of_lt (Nat.sub_le _ _) t.isLt)).2.2 := by
  by_cases h1 : t.val % 16 = 15
  · rw [outsAt0_C m c t h0 h1]
    exact neg_last c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2.1 (outsAt0 m c (t.val - 1) (Nat.lt_of_le_of_lt (Nat.sub_le _ _) t.isLt)).2.2
  · rw [outsAt0_B m c t h0 h1]
    exact neg_middle c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (outsAt0 m c (t.val - 1) (Nat.lt_of_le_of_lt (Nat.sub_le _ _) t.isLt)).2.1 (outsAt0 m c (t.val - 1) (Nat.lt_of_le_of_lt (Nat.sub_le _ _) t.isLt)).2.2

/-- At the last vocabulary tile the output block is the mask block times the two accumulators as the tile leaves
    them. -/
theorem last_out (h0 : ¬t.val % 16 = 0) (h1 : t.val % 16 = 15) :
    (outsAt0 m c t.val t.isLt).1 = k0_pay1 (iblk m c 0 t)
      (k0_pay5 (iblk m c 1 t) (iblk m c 2 t) (outsAt0 m c (t.val - 1) (Nat.lt_of_le_of_lt (Nat.sub_le _ _) t.isLt)).2.1)
      (k0_pay6 (iblk m c 1 t) (iblk m c 2 t) (outsAt0 m c (t.val - 1) (Nat.lt_of_le_of_lt (Nat.sub_le _ _) t.isLt)).2.2) := by
  rw [outsAt0_C m c t h0 h1]
  exact out_last c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2.1 (outsAt0 m c (t.val - 1) (Nat.lt_of_le_of_lt (Nat.sub_le _ _) t.isLt)).2.2

end Cert.PairRank.Kernel

end
-- ==== Proof.LibBlockSum.lean ====
/-
  A sum over `Fin (K * L)` of a function of the position, split into `K` consecutive blocks of `L`:
  position `L * k + j` is element `j` of block `k`.
-/
import Mathlib.Algebra.BigOperators.Fin

namespace Cert.Lib.BlockSum

open Finset

/-- A sum over the first `K * L` naturals is the sum over `K` blocks of the sums over each block's `L` positions. -/
theorem sum_range_blocks {M : Type*} [AddCommMonoid M] (K L : ℕ) (g : ℕ → M) :
    ∑ m ∈ range (K * L), g m = ∑ k ∈ range K, ∑ j ∈ range L, g (L * k + j) := by
  induction K with
  | zero => simp
  | succ K ih =>
    rw [Nat.succ_mul, sum_range_add, ih, sum_range_succ, Nat.mul_comm K L]

/-- The same over `Fin N` with `N = K * L`, the inner sums over `Fin L`. -/
theorem sum_fin_blocks {M : Type*} [AddCommMonoid M] (K L N : ℕ) (hN : N = K * L) (g : ℕ → M) :
    ∑ kk : Fin N, g kk.val = ∑ k ∈ range K, ∑ j : Fin L, g (L * k + j.val) := by
  subst hN
  rw [Fin.sum_univ_eq_sum_range (fun m => g m) (K * L), sum_range_blocks]
  refine sum_congr rfl (fun k _ => ?_)
  rw [Fin.sum_univ_eq_sum_range (fun j => g (L * k + j)) L]

end Cert.Lib.BlockSum
-- ==== Proof.Spec.lean ====
/-
  The pairwise ranking loss, entry by entry, on the extended reals.

  For a batch row `b` and a position `l` the loss pairs every positive label with every negative one; the sum over
  the pairs of `e^(s_i - s_j)` factors into (the sum over the positive labels of `e^s`) times (the sum over the
  negative labels of `e^(-s)`). With `y` the 0/1 indicator of "the label word is not zero", the two factors are
  `∑_v y_v · e^(s_v)` and `∑_v (1 - y_v) · e^(-s_v)` over the 8192 vocabulary entries, and the entry of the
  matrix that is finally summed is `mask(b, l)` times the first factor times the second.

  The kernel walks the vocabulary in 16 tiles of 512 entries and adds one tile's partial sum at a time; addition
  on the extended reals is commutative and associative, so the 16 partial sums add up to the sum over all 8192
  entries whatever the values are (no finiteness is used).
-/
import Idealize.ShloMosaic.PureOps.Ideal.Laws
import Idealize.ShloMosaic.Lib.ValueIdx
import proofs.«179755_j40346922779396_1_alg».proof.Proof.LibBlockSum

noncomputable section

open Idealize.ShloMosaic Idealize.ShloMosaic.ValueIdx
open scoped BigOperators

namespace Cert.PairRank

/-- The indicator of one label word: 1 where the word is not zero, 0 where it is. -/
def ind (w : BitVec 32) : EReal := FloatOps.uitofp (F := Ideal) .f32 (IntOp.cmpi .ne w 0#32)

/-- One vocabulary entry's share of the positive factor: the indicator times `e^s`. -/
def posTerm (s : EReal) (w : BitVec 32) : EReal := ind w * Ideal.exp s

/-- One vocabulary entry's share of the negative factor: one minus the indicator, times `e^(-s)`. -/
def negTerm (s : EReal) (w : BitVec 32) : EReal := (Ideal.ofBits .f32 0x3F800000#32 - ind w) * Ideal.exp (-s)

/-- A one-bit word widened to 32 bits and read as a signed integer is the bit read as a natural number: the
    kernel's conversion of a comparison's result and the reference's are one real number. -/
theorem bit_signed_eq_unsigned (b : BitVec 1) : (((b.setWidth 32).toInt : ℝ) : EReal) = ((b.toNat : ℝ) : EReal) := by
  have h : ∀ b : BitVec 1, (b.setWidth 32).toInt = (b.toNat : ℤ) := by decide
  rw [h b, Int.cast_natCast]

/-- The `f32` pattern of `+0.0` minus `s` is `-s` on every extended real. -/
theorem zero_sub_eq_neg (s : EReal) : Ideal.ofBits .f32 0x00000000#32 - s = -s := by
  rw [Ideal.ofBits_zero_f32, zero_sub]

/-! ## Natural coordinates

The arrays are indexed by (batch row, position, vocabulary entry). Reading them at natural numbers folded into
range keeps every sum below free of proofs of bounds; on numbers in range the folding is the identity. -/

def rowOf (b : ℕ) : Fin 64 := ⟨b % 64, Nat.mod_lt _ (by decide)⟩
def posOf (l : ℕ) : Fin 188 := ⟨l % 188, Nat.mod_lt _ (by decide)⟩
def vocOf (v : ℕ) : Fin 8192 := ⟨v % 8192, Nat.mod_lt _ (by decide)⟩

theorem rowOf_of_lt {b : ℕ} (h : b < 64) : rowOf b = ⟨b, h⟩ := Fin.ext (Nat.mod_eq_of_lt h)
theorem posOf_of_lt {l : ℕ} (h : l < 188) : posOf l = ⟨l, h⟩ := Fin.ext (Nat.mod_eq_of_lt h)
theorem vocOf_of_lt {v : ℕ} (h : v < 8192) : vocOf v = ⟨v, h⟩ := Fin.ext (Nat.mod_eq_of_lt h)

abbrev SBLV : Shape := ⟨3, ![64, 188, 8192]⟩
abbrev SBL : Shape := ⟨2, ![64, 188]⟩

/-- Entry (b, l, v) of a [64, 188, 8192] array, at natural coordinates. -/
def at3 {α : Type} (X : SBLV.Idx → α) (b l v : ℕ) : α := X (ix3 (rowOf b) (posOf l) (vocOf v))

variable (S : SBLV.Idx → EReal) (T : SBLV.Idx → BitVec 32)

/-- Vocabulary entry `v`'s share of the positive factor of row (b, l). -/
def posAt (b l v : ℕ) : EReal := posTerm (at3 S b l v) (at3 T b l v)
/-- Vocabulary entry `v`'s share of the negative factor of row (b, l). -/
def negAt (b l v : ℕ) : EReal := negTerm (at3 S b l v) (at3 T b l v)

/-- The positive factor of row (b, l): the sum over the whole vocabulary. -/
def posSum (b l : ℕ) : EReal := ∑ v : Fin 8192, posAt S T b l v.val
/-- The negative factor of row (b, l). -/
def negSum (b l : ℕ) : EReal := ∑ v : Fin 8192, negAt S T b l v.val

/-- The positive factor after the first `n` tiles of 512 vocabulary entries. -/
def posTiles (b l n : ℕ) : EReal := ∑ k ∈ Finset.range n, ∑ j : Fin 512, posAt S T b l (512 * k + j.val)
/-- The negative factor after the first `n` tiles. -/
def negTiles (b l n : ℕ) : EReal := ∑ k ∈ Finset.range n, ∑ j : Fin 512, negAt S T b l (512 * k + j.val)

theorem posTiles_succ (b l n : ℕ) :
    posTiles S T b l (n + 1) = posTiles S T b l n + ∑ j : Fin 512, posAt S T b l (512 * n + j.val) :=
  Finset.sum_range_succ _ n
theorem negTiles_succ (b l n : ℕ) :
    negTiles S T b l (n + 1) = negTiles S T b l n + ∑ j : Fin 512, negAt S T b l (512 * n + j.val) :=
  Finset.sum_range_succ _ n

theorem posTiles_one (b l : ℕ) : posTiles S T b l 1 = ∑ j : Fin 512, posAt S T b l (512 * 0 + j.val) := by
  unfold posTiles; rw [Finset.sum_range_one]
theorem negTiles_one (b l : ℕ) : negTiles S T b l 1 = ∑ j : Fin 512, negAt S T b l (512 * 0 + j.val) := by
  unfold negTiles; rw [Finset.sum_range_one]

/-- All 16 tiles together are the whole vocabulary: the tiled sum is the full sum. -/
theorem posTiles_all (b l : ℕ) : posTiles S T b l 16 = posSum S T b l :=
  (Cert.Lib.BlockSum.sum_fin_blocks 16 512 8192 rfl (posAt S T b l)).symm
theorem negTiles_all (b l : ℕ) : negTiles S T b l 16 = negSum S T b l :=
  (Cert.Lib.BlockSum.sum_fin_blocks 16 512 8192 rfl (negAt S T b l)).symm

/-- The matrix both programs sum: at (b, l), the mask times the positive factor times the negative factor. -/
def pairProd (mask : SBL.Idx → EReal) : SBL.Idx → EReal :=
  fun i => mask i * posSum S T (i 0).val (i 1).val * negSum S T (i 0).val (i 1).val

end Cert.PairRank

end
-- ==== Proof.Blocks.lean ====
/-
  A block's entry is the array's entry.

  Point `t` of the grid is vocabulary tile `t mod 16` of batch tile `t / 16`. Row `r`, position `l`, entry `j` of
  the scores (or labels) block at `t` is entry (8·(t/16) + r, l, 512·(t mod 16) + j) of the scores (or labels)
  array; row `r`, position `l` of the mask block, and of the output block, is entry (8·(t/16) + r, l) of the
  mask, and of the output, matrix.
-/
import proofs.«179755_j40346922779396_1_alg».proof.Proof.Gen.KernelIdeal.Frame
import proofs.«179755_j40346922779396_1_alg».proof.Proof.Spec
import Idealize.ShloMosaic.Lib.Pipeline.Value

noncomputable section

open Idealize.ShloMosaic Idealize.ShloMosaic.TcCoe Idealize.SL.Sem Idealize.ShloMosaic.ValueIdx
open scoped BigOperators

namespace Cert.PairRank.Kernel

open Cert.KernelIdeal Cert.KernelIdeal.Gen Cert.PairRank

variable {F : FTy → Type} [FloatOps F]
variable (m : (ℓ : Loc nD τ sig) → Buf (Elt F) ℓ) (c : Dev nD) (t : Fin cfg0.N)

theorem point_lt : t.val < 128 := lt_of_lt_of_eq t.isLt (show cfg0.N = 128 from N_0)

/-! ## Which block each window is on, decided once over the 128 grid points -/

theorem where_mask : ∀ t : Fin cfg0.N, win0_0.index t 0 = t.val / 16 ∧ win0_0.index t 1 = 0 :=
  (by decide +kernel : ∀ t : Fin grid0.N, win0_0.index t 0 = t.val / 16 ∧ win0_0.index t 1 = 0)
theorem where_scores : ∀ t : Fin cfg0.N,
    win0_1.index t 0 = t.val / 16 ∧ win0_1.index t 1 = 0 ∧ win0_1.index t 2 = t.val % 16 :=
  (by decide +kernel : ∀ t : Fin grid0.N,
    win0_1.index t 0 = t.val / 16 ∧ win0_1.index t 1 = 0 ∧ win0_1.index t 2 = t.val % 16)
theorem where_labels : ∀ t : Fin cfg0.N,
    win0_2.index t 0 = t.val / 16 ∧ win0_2.index t 1 = 0 ∧ win0_2.index t 2 = t.val % 16 :=
  (by decide +kernel : ∀ t : Fin grid0.N,
    win0_2.index t 0 = t.val / 16 ∧ win0_2.index t 1 = 0 ∧ win0_2.index t 2 = t.val % 16)
theorem where_out : ∀ t : Fin cfg0.N, win0_3.index t 0 = t.val / 16 ∧ win0_3.index t 1 = 0 :=
  (by decide +kernel : ∀ t : Fin grid0.N, win0_3.index t 0 = t.val / 16 ∧ win0_3.index t 1 = 0)

/-! ## The blocks' entries -/

/-- Where entry (r, l, j) of the scores block at `t` sits in the scores array. -/
theorem scores_pos (r : Fin 8) (l : Fin 188) (j : Fin 512) :
    ((cfg0.win 1).blk t).view.emb (ix3 r l j)
      = ix3 (rowOf (8 * (t.val / 16) + r.val)) (posOf l.val) (vocOf (512 * (t.val % 16) + j.val)) := by
  have hN := point_lt t
  obtain ⟨e0, e1, e2⟩ := where_scores t
  funext a; apply Fin.ext
  match a with
  | ⟨0, _⟩ => show win0_1.index t 0 * 8 + 1 * r.val = (8 * (t.val / 16) + r.val) % 64; rw [e0]; have := r.isLt; omega
  | ⟨1, _⟩ => show win0_1.index t 1 * 188 + 1 * l.val = l.val % 188; rw [e1]; have := l.isLt; omega
  | ⟨2, _⟩ => show win0_1.index t 2 * 512 + 1 * j.val = (512 * (t.val % 16) + j.val) % 8192; rw [e2]; have := j.isLt; omega

theorem labels_pos (r : Fin 8) (l : Fin 188) (j : Fin 512) :
    ((cfg0.win 2).blk t).view.emb (ix3 r l j)
      = ix3 (rowOf (8 * (t.val / 16) + r.val)) (posOf l.val) (vocOf (512 * (t.val % 16) + j.val)) := by
  have hN := point_lt t
  obtain ⟨e0, e1, e2⟩ := where_labels t
  funext a; apply Fin.ext
  match a with
  | ⟨0, _⟩ => show win0_2.index t 0 * 8 + 1 * r.val = (8 * (t.val / 16) + r.val) % 64; rw [e0]; have := r.isLt; omega
  | ⟨1, _⟩ => show win0_2.index t 1 * 188 + 1 * l.val = l.val % 188; rw [e1]; have := l.isLt; omega
  | ⟨2, _⟩ => show win0_2.index t 2 * 512 + 1 * j.val = (512 * (t.val % 16) + j.val) % 8192; rw [e2]; have := j.isLt; omega

theorem mask_pos (r : Fin 8) (l : Fin 188) :
    ((cfg0.win 0).blk t).view.emb (ix2 r l) = ix2 (rowOf (8 * (t.val / 16) + r.val)) (posOf l.val) := by
  have hN := point_lt t
  obtain ⟨e0, e1⟩ := where_mask t
  funext a; apply Fin.ext
  match a with
  | ⟨0, _⟩ => show win0_0.index t 0 * 8 + 1 * r.val = (8 * (t.val / 16) + r.val) % 64; rw [e0]; have := r.isLt; omega
  | ⟨1, _⟩ => show win0_0.index t 1 * 188 + 1 * l.val = l.val % 188; rw [e1]; have := l.isLt; omega

theorem out_pos (r : Fin 8) (l : Fin 188) :
    ((cfg0.win 3).blk t).view.emb (ix2 r l) = ix2 (rowOf (8 * (t.val / 16) + r.val)) (posOf l.val) := by
  have hN := point_lt t
  obtain ⟨e0, e1⟩ := where_out t
  funext a; apply Fin.ext
  match a with
  | ⟨0, _⟩ => show win0_3.index t 0 * 8 + 1 * r.val = (8 * (t.val / 16) + r.val) % 64; rw [e0]; have := r.isLt; omega
  | ⟨1, _⟩ => show win0_3.index t 1 * 188 + 1 * l.val = l.val % 188; rw [e1]; have := l.isLt; omega

/-- Entry (r, l, j) of the scores block at `t` is the scores array's entry. -/
theorem scores_entry (r : Fin 8) (l : Fin 188) (j : Fin 512) :
    (iblk m c 1 t : Vec F S8x188x512 .f32) (ix3 r l j)
      = at3 (m ((c : Thread nD τ).loc main_arg0) : FVec F SBLV .f32) (8 * (t.val / 16) + r.val) l.val (512 * (t.val % 16) + j.val) := by
  unfold iblk
  rw [View.read_apply]
  show V m c main_arg0 (((cfg0.win 1).blk t).view.emb (ix3 r l j)) = _
  rw [V_main_arg0, scores_pos]
  rfl

/-- Entry (r, l, j) of the labels block at `t` is the labels array's entry. -/
theorem labels_entry (r : Fin 8) (l : Fin 188) (j : Fin 512) :
    (iblk m c 2 t : Vec F S8x188x512 .i32) (ix3 r l j)
      = at3 (m ((c : Thread nD τ).loc main_arg1) : IVec SBLV 32) (8 * (t.val / 16) + r.val) l.val (512 * (t.val % 16) + j.val) := by
  unfold iblk
  rw [View.read_apply]
  show V m c main_arg1 (((cfg0.win 2).blk t).view.emb (ix3 r l j)) = _
  rw [V_main_arg1, labels_pos]
  rfl

/-- Entry (r, l) of the mask block at `t` is the mask matrix's entry, the matrix as the region finds it. -/
theorem mask_entry (r : Fin 8) (l : Fin 188) :
    (iblk m c 0 t : Vec F S8x188 .f32) (ix2 r l)
      = (V m c main_v6 : FVec F SBL .f32) (ix2 (rowOf (8 * (t.val / 16) + r.val)) (posOf l.val)) := by
  unfold iblk
  rw [View.read_apply]
  show V m c main_v6 (((cfg0.win 0).blk t).view.emb (ix2 r l)) = _
  rw [mask_pos]

end Cert.PairRank.Kernel

end
-- ==== Proof.Payload.lean ====
/-
  The body's stored values read at one entry, on the extended reals.

  At row `r`, position `l` of a block: an accumulator grows by the sum, over the tile's 512 vocabulary entries, of
  the entry's positive (resp. negative) term; the zero block reads 0; and the output block is the product of the
  mask entry and the two accumulators' entries.
-/
import proofs.«179755_j40346922779396_1_alg».proof.Proof.Gen.KernelIdeal.Skeleton
import proofs.«179755_j40346922779396_1_alg».proof.Proof.Spec
import Idealize.ShloMosaic.Lib.Pipeline.Value

noncomputable section

open Idealize.ShloMosaic Idealize.ShloMosaic.ValueIdx
open scoped BigOperators

namespace Cert.PairRank.Kernel

open Cert.KernelIdeal Cert.KernelIdeal.Gen Cert.PairRank

/-- The entry of a [8, 188, 512] tile that the sum over the vocabulary axis visits at (r, l), step j, is (r, l, j). -/
theorem lift_tile (h : S8x188x512.Reduces [2] S8x188) (r : Fin 8) (l : Fin 188) (j : Fin 512) :
    h.lift (ix2 r l) j = ix3 r l j :=
  funext fun a => Fin.ext (by match a with | ⟨0, _⟩ => rfl | ⟨1, _⟩ => rfl | ⟨2, _⟩ => rfl)

variable (x1 : Vec Ideal S8x188x512 .f32) (x2 : Vec Ideal S8x188x512 .i32) (acc : Vec Ideal S8x188 .f32)
  (r : Fin 8) (l : Fin 188)

/-- The kernel's indicator of a label word is the specification's. -/
theorem ind_entry (y : S8x188x512.Idx) : k0_pay4 (F := Ideal) x2 y = ind (x2 y) := by
  unfold k0_pay4
  exact bit_signed_eq_unsigned _

/-- The positive accumulator's new entry: the old one plus the tile's 512 positive terms. -/
theorem pos_step :
    k0_pay5 (F := Ideal) x1 x2 acc (ix2 r l)
      = acc (ix2 r l) + ∑ j : Fin 512, posTerm (x1 (ix3 r l j)) (x2 (ix3 r l j)) := by
  unfold k0_pay5
  rw [shapeCast_self]
  refine congrArg (acc (ix2 r l) + ·) ?_
  refine (Ideal.multiReduction_add_single _ 0x00000000#32 reduces_S8x188x512_S8x188 (.inl rfl) rfl (ix2 r l)).trans ?_
  refine Finset.sum_congr rfl fun (j : Fin 512) _ => ?_
  rw [lift_tile]
  show k0_pay4 (F := Ideal) x2 (ix3 r l j) * Ideal.exp (x1 (ix3 r l j)) = _
  rw [ind_entry]
  rfl

/-- The negative accumulator's new entry: the old one plus the tile's 512 negative terms. -/
theorem neg_step :
    k0_pay6 (F := Ideal) x1 x2 acc (ix2 r l)
      = acc (ix2 r l) + ∑ j : Fin 512, negTerm (x1 (ix3 r l j)) (x2 (ix3 r l j)) := by
  unfold k0_pay6
  rw [shapeCast_self]
  refine congrArg (acc (ix2 r l) + ·) ?_
  refine (Ideal.multiReduction_add_single _ 0x00000000#32 reduces_S8x188x512_S8x188 (.inl rfl) rfl (ix2 r l)).trans ?_
  refine Finset.sum_congr rfl fun (j : Fin 512) _ => ?_
  rw [lift_tile]
  show (Ideal.ofBits .f32 0x3F800000#32 - k0_pay4 (F := Ideal) x2 (ix3 r l j))
      * Ideal.exp (Ideal.ofBits .f32 0x00000000#32 - x1 (ix3 r l j)) = _
  rw [ind_entry, zero_sub_eq_neg]
  rfl

/-- The zero block reads 0 at every entry. -/
theorem zero_pos : k0_pay2 (F := Ideal) (ix2 r l) = 0 := by
  unfold k0_pay2
  rw [shapeCast_self]
  exact Ideal.ofBits_zero_f32
theorem zero_neg : k0_pay3 (F := Ideal) (ix2 r l) = 0 := by
  unfold k0_pay3
  rw [shapeCast_self]
  exact Ideal.ofBits_zero_f32

/-- The output block's entry: the mask entry times the two accumulators' entries. -/
theorem out_entry (x0 p q : Vec Ideal S8x188 .f32) :
    k0_pay1 (F := Ideal) x0 p q (ix2 r l) = x0 (ix2 r l) * p (ix2 r l) * q (ix2 r l) := by
  unfold k0_pay1
  rw [shapeCast_self]
  rfl

end Cert.PairRank.Kernel

end
-- ==== Proof.Accumulate.lean ====
/-
  The two accumulators after every grid point, in closed form.

  After point `t` — vocabulary tile `t mod 16` of batch tile `t / 16` — row `r`, position `l` of the positive
  accumulator holds the sum of the positive terms of array row `8·(t/16) + r` over the first `(t mod 16) + 1`
  vocabulary tiles, and the negative accumulator likewise: at tile 0 the zero block plus the first tile's sum, at a
  later tile the sum so far plus one more tile. By induction on the point, never by enumerating the grid.
-/
import proofs.«179755_j40346922779396_1_alg».proof.Proof.Carry
import proofs.«179755_j40346922779396_1_alg».proof.Proof.Blocks
import proofs.«179755_j40346922779396_1_alg».proof.Proof.Payload

noncomputable section

open Idealize.ShloMosaic Idealize.ShloMosaic.TcCoe Idealize.SL.Sem Idealize.ShloMosaic.ValueIdx
open scoped BigOperators

namespace Cert.PairRank.Kernel

open Cert.KernelIdeal Cert.KernelIdeal.Gen Cert.PairRank

variable (m : (ℓ : Loc nD τ sig) → Buf (Elt Ideal) ℓ) (c : Dev nD)

/-- The scores and the labels as launched. -/
abbrev scores : SBLV.Idx → EReal := m ((c : Thread nD τ).loc main_arg0)
abbrev labels : SBLV.Idx → BitVec 32 := m ((c : Thread nD τ).loc main_arg1)

variable (t : Fin cfg0.N) (r : Fin 8) (l : Fin 188)

/-- One tile's positive terms, read through the blocks, are the arrays' terms of that tile. -/
theorem tile_pos :
    ∑ j : Fin 512, posTerm ((iblk m c 1 t : Vec Ideal S8x188x512 .f32) (ix3 r l j))
        ((iblk m c 2 t : Vec Ideal S8x188x512 .i32) (ix3 r l j))
      = ∑ j : Fin 512, posAt (scores m c) (labels m c) (8 * (t.val / 16) + r.val) l.val (512 * (t.val % 16) + j.val) :=
  Finset.sum_congr rfl fun j _ => by rw [scores_entry m c t r l j, labels_entry m c t r l j]; rfl

theorem tile_neg :
    ∑ j : Fin 512, negTerm ((iblk m c 1 t : Vec Ideal S8x188x512 .f32) (ix3 r l j))
        ((iblk m c 2 t : Vec Ideal S8x188x512 .i32) (ix3 r l j))
      = ∑ j : Fin 512, negAt (scores m c) (labels m c) (8 * (t.val / 16) + r.val) l.val (512 * (t.val % 16) + j.val) :=
  Finset.sum_congr rfl fun j _ => by rw [scores_entry m c t r l j, labels_entry m c t r l j]; rfl

/-- At a batch tile's first vocabulary tile: one tile summed. -/
theorem first_tile_pos (h0 : t.val % 16 = 0) :
    (outsAt0 m c t.val t.isLt).2.1 (ix2 r l)
      = posTiles (scores m c) (labels m c) (8 * (t.val / 16) + r.val) l.val (t.val % 16 + 1) := by
  rw [first_pos m c t h0 (by omega), pos_step (iblk m c 1 t) (iblk m c 2 t) (k0_pay2 (F := Ideal)) r l, zero_pos, zero_add,
    tile_pos, h0]
  exact (posTiles_one _ _ _ _).symm

theorem first_tile_neg (h0 : t.val % 16 = 0) :
    (outsAt0 m c t.val t.isLt).2.2 (ix2 r l)
      = negTiles (scores m c) (labels m c) (8 * (t.val / 16) + r.val) l.val (t.val % 16 + 1) := by
  rw [first_neg m c t h0 (by omega), neg_step (iblk m c 1 t) (iblk m c 2 t) (k0_pay3 (F := Ideal)) r l, zero_neg, zero_add,
    tile_neg, h0]
  exact (negTiles_one _ _ _ _).symm

/-- At a later vocabulary tile: what the point before summed, plus one more tile. -/
theorem later_tile_pos (h0 : ¬t.val % 16 = 0)
    (ih : (outsAt0 m c (t.val - 1) (Nat.lt_of_le_of_lt (Nat.sub_le _ _) t.isLt)).2.1 (ix2 r l)
      = posTiles (scores m c) (labels m c) (8 * ((t.val - 1) / 16) + r.val) l.val ((t.val - 1) % 16 + 1)) :
    (outsAt0 m c t.val t.isLt).2.1 (ix2 r l)
      = posTiles (scores m c) (labels m c) (8 * (t.val / 16) + r.val) l.val (t.val % 16 + 1) := by
  have e1 : (t.val - 1) / 16 = t.val / 16 := by omega
  have e2 : (t.val - 1) % 16 + 1 = t.val % 16 := by omega
  rw [later_pos m c t h0, pos_step (iblk m c 1 t) (iblk m c 2 t) _ r l, ih, tile_pos, e1, e2]
  exact (posTiles_succ _ _ _ _ _).symm

theorem later_tile_neg (h0 : ¬t.val % 16 = 0)
    (ih : (outsAt0 m c (t.val - 1) (Nat.lt_of_le_of_lt (Nat.sub_le _ _) t.isLt)).2.2 (ix2 r l)
      = negTiles (scores m c) (labels m c) (8 * ((t.val - 1) / 16) + r.val) l.val ((t.val - 1) % 16 + 1)) :
    (outsAt0 m c t.val t.isLt).2.2 (ix2 r l)
      = negTiles (scores m c) (labels m c) (8 * (t.val / 16) + r.val) l.val (t.val % 16 + 1) := by
  have e1 : (t.val - 1) / 16 = t.val / 16 := by omega
  have e2 : (t.val - 1) % 16 + 1 = t.val % 16 := by omega
  rw [later_neg m c t h0, neg_step (iblk m c 1 t) (iblk m c 2 t) _ r l, ih, tile_neg, e1, e2]
  exact (negTiles_succ _ _ _ _ _).symm

/-- THE ACCUMULATORS, after every point: the tiled sums so far. -/
theorem acc_eq (n : ℕ) : ∀ (h : n < cfg0.N) (r : Fin 8) (l : Fin 188),
    (outsAt0 m c n h).2.1 (ix2 r l)
        = posTiles (scores m c) (labels m c) (8 * (n / 16) + r.val) l.val (n % 16 + 1)
      ∧ (outsAt0 m c n h).2.2 (ix2 r l)
        = negTiles (scores m c) (labels m c) (8 * (n / 16) + r.val) l.val (n % 16 + 1) := by
  induction n with
  | zero =>
    intro h r l
    exact ⟨first_tile_pos m c ⟨0, h⟩ r l rfl, first_tile_neg m c ⟨0, h⟩ r l rfl⟩
  | succ k ih =>
    intro h r l
    by_cases h0 : (k + 1) % 16 = 0
    · exact ⟨first_tile_pos m c ⟨k + 1, h⟩ r l h0, first_tile_neg m c ⟨k + 1, h⟩ r l h0⟩
    · have hk := ih (Nat.lt_of_succ_lt h) r l
      exact ⟨later_tile_pos m c ⟨k + 1, h⟩ r l h0 hk.1, later_tile_neg m c ⟨k + 1, h⟩ r l h0 hk.2⟩

end Cert.PairRank.Kernel

end
-- ==== Proof.Closing.lean ====
/-
  The closing operations both programs apply to the [64, 188] matrix of masked products: its sum over both axes
  starting from zero, times 8192 (the vocabulary size), divided by 64 (the batch size), as a one-element vector.
  Both programs apply it to matrices that are shown equal, so it is carried as one function and never opened.
-/
import Idealize.ShloMosaic.PureOps

noncomputable section

open Idealize.ShloMosaic

namespace Cert.PairRank

/-- Sum of the matrix from zero, times 8192, divided by 64, reshaped to one element. -/
def closing {F : FTy → Type} [FloatOps F] (X : FVec F ⟨2, ![64, 188]⟩ .f32)
    (h1 : (⟨2, ![64, 188]⟩ : Shape).ReducesTo [0, 1] ⟨0, ![]⟩) (h2 : 0 < (⟨0, ![]⟩ : Shape).numel)
    (h3 : (⟨0, ![]⟩ : Shape).ShapeCasts ⟨1, ![1]⟩) : FVec F ⟨1, ![1]⟩ .f32 :=
  shapeCast ⟨1, ![1]⟩
    (Host.divf (mulf (Host.reduceAdd X (constant (F := F) ⟨0, ![]⟩ .f32 0x00000000#32) h1 h2)
      (constant (F := F) ⟨0, ![]⟩ .f32 0x46000000#32)) (constant (F := F) ⟨0, ![]⟩ .f32 0x42800000#32)) h3

end Cert.PairRank

end
-- ==== Proof.Final.lean ====
/-
  The kernel's result.

  The output block stored at a batch tile's last vocabulary tile is that tile's eight rows of the matrix
  `mask · positive factor · negative factor`: the two accumulators have then summed all 16 tiles, that is the whole
  vocabulary. The eight batch tiles' blocks cover the [64, 188] matrix, so the array the region leaves is that
  matrix, and the host lines after the region apply the closing operations to it.
-/
import proofs.«179755_j40346922779396_1_alg».proof.Proof.Accumulate
import proofs.«179755_j40346922779396_1_alg».proof.Proof.Closing
import Idealize.ShloMosaic.Lib.StableHlo.Run

noncomputable section

open Idealize.ShloMosaic Idealize.ShloMosaic.TcCoe Idealize.SL.Sem Idealize.ShloMosaic.ValueIdx
open scoped BigOperators

namespace Cert.PairRank.Kernel

open Cert.KernelIdeal Cert.KernelIdeal.Gen Cert.PairRank

variable (m : (ℓ : Loc nD τ sig) → Buf (Elt Ideal) ℓ) (ρ : Dev nD → PrngReg) (c : Dev nD)

/-- The mask as the region finds it: what the host lines before the region computed from the lengths. -/
abbrev mask : SBL.Idx → EReal := V m c main_v6

/-- The matrix of masked products of the launch contents. -/
abbrev matrix : SBL.Idx → EReal := pairProd (scores m c) (labels m c) (mask m c)

/-- WHAT A BATCH TILE'S LAST POINT WRITES BACK is its block of the matrix. -/
theorem flushed_eq (t : Fin cfg0.N) (hf : (cfg0.win 3).flush t = true) :
    (dats m 0 c).flushed 3 t = ((cfg0.win 3).blk t).view.read (Elt Ideal) (matrix m c) := by
  have h15 : t.val % 16 = 15 := (flush0_3 t).mp hf
  have h0 : ¬t.val % 16 = 0 := by omega
  have e16 : t.val % 16 + 1 = 16 := by omega
  have hN := point_lt t
  show (cfg0.win 3).cut (grid0.coords t) ((dats m 0 c).after 3 t) = _
  rw [after0_3]
  funext y
  obtain ⟨r, l, rfl⟩ : ∃ (r : Fin 8) (l : Fin 188), y = ix2 r l := ⟨y 0, y 1, eq_ix2 (n0 := 8) (n1 := 188) y⟩
  rw [View.read_apply]
  show (outsAt0 m c t.val t.isLt).1 ((cfg0.win 3).xinj (grid0.coords t) (ix2 r l))
    = matrix m c (((cfg0.win 3).blk t).view.emb (ix2 r l))
  rw [show (cfg0.win 3).xinj (grid0.coords t) (ix2 r l) = ix2 r l from funext fun a => Fin.ext rfl]
  rw [out_pos t r l, last_out m c t h0 h15, ← later_pos m c t h0, ← later_neg m c t h0,
    out_entry r l (iblk m c 0 t) _ _, mask_entry m c t r l, (acc_eq m c t.val t.isLt r l).1,
    (acc_eq m c t.val t.isLt r l).2, e16, posTiles_all, negTiles_all]
  have hb : 8 * (t.val / 16) + r.val < 64 := by have := r.isLt; omega
  show _ = mask m c (ix2 (rowOf (8 * (t.val / 16) + r.val)) (posOf l.val))
      * posSum (scores m c) (labels m c) (rowOf (8 * (t.val / 16) + r.val)).val (posOf l.val).val
      * negSum (scores m c) (labels m c) (rowOf (8 * (t.val / 16) + r.val)).val (posOf l.val).val
  rw [show (rowOf (8 * (t.val / 16) + r.val)).val = 8 * (t.val / 16) + r.val from Nat.mod_eq_of_lt hb,
    show (posOf l.val).val = l.val from Nat.mod_eq_of_lt l.isLt]

/-- An entry of the matrix is in point `t`'s block iff each coordinate is in the block's range on its axis. -/
theorem mem_out_blk (t : Fin cfg0.N) (i : S64x188.Idx) :
    i ∈ ((cfg0.win 3).blk t).view.set ↔ ∀ a : Fin 2, win0_3.index t a * S8x188.size a ≤ (i a).val
      ∧ (i a).val < win0_3.index t a * S8x188.size a + S8x188.size a := by
  show i ∈ ((View.whole main_v7).slice (win0_3.rect t)).set ↔ _
  rw [View.set_slice_whole, Rect.mem_set_unit]
  exact Iff.rfl

/-- Row `b` of the matrix is written back by the last point of batch tile `b / 8`. -/
theorem covered (i : S64x188.Idx) :
    ∃ t : Fin cfg0.N, (cfg0.win 3).flush t = true ∧ i ∈ ((cfg0.win 3).blk t).view.set := by
  have hi0 : (i 0).val < 64 := (i 0).isLt
  have hi1 : (i 1).val < 188 := (i 1).isLt
  have hN : cfg0.N = 128 := N_0
  have ht : 16 * ((i 0).val / 8) + 15 < cfg0.N := by rw [hN]; omega
  obtain ⟨e0, e1⟩ := where_out ⟨16 * ((i 0).val / 8) + 15, ht⟩
  refine ⟨⟨16 * ((i 0).val / 8) + 15, ht⟩, (flush0_3 _).mpr (by show (16 * ((i 0).val / 8) + 15) % 16 = 15; omega), ?_⟩
  rw [mem_out_blk]
  intro a
  match a with
  | ⟨0, _⟩ =>
    show win0_3.index ⟨16 * ((i 0).val / 8) + 15, ht⟩ 0 * 8 ≤ (i 0).val
      ∧ (i 0).val < win0_3.index ⟨16 * ((i 0).val / 8) + 15, ht⟩ 0 * 8 + 8
    rw [e0]
    show (16 * ((i 0).val / 8) + 15) / 16 * 8 ≤ (i 0).val ∧ (i 0).val < (16 * ((i 0).val / 8) + 15) / 16 * 8 + 8
    omega
  | ⟨1, _⟩ =>
    show win0_3.index ⟨16 * ((i 0).val / 8) + 15, ht⟩ 1 * 188 ≤ (i 1).val
      ∧ (i 1).val < win0_3.index ⟨16 * ((i 0).val / 8) + 15, ht⟩ 1 * 188 + 188
    rw [e1]
    omega

/-- THE ARRAY the region leaves is the matrix. -/
theorem final : (dats m 0 c).arrAt 3 cfg0.N = matrix m c :=
  (dats m 0 c).arrAt_eq_of_cover 3 (matrix m c) (flushed_eq m c) covered

/-- The host lines after the region leave the closing operations of that matrix in the result. -/
theorem result_eq :
    Pipeline.afterTail₀ cfgs (dats m) 0 (V0 m) [hostOps1] c main_v11
      = closing (F := Ideal) (matrix m c) reducesTo_S64x188_S_d0_1 h_S_ shapeCasts_S_S1 := by
  unfold Pipeline.afterTail₀
  show StableHlo.after hostOps1 _ (Proc.devRef .tc main_v11) = _
  after_results
  have e : Pipeline.withArrays (cfgs 0).spec c (V0 m c) (fun w => (dats m 0 c).arrAt w (cfgs 0).N)
      (Proc.devRef .tc main_v7) = matrix m c :=
    (Pipeline.withArrays_arr spec0 launch0.win.arr_inj c _ _ 3).trans (final m c)
  rw [e]
  rfl

/-- THE KERNEL'S RUN, read: the result at the closing operations of the matrix, the arguments unchanged. -/
theorem run : θ_run defs (onTc (τ := τ) (main (F := Ideal))) ⟨m, fun _ => 0, ρ⟩ fun r => ∀ c : Dev nD,
      r.2.mem ((c.tc : Thread nD τ).loc main_v11)
        = closing (F := Ideal) (matrix m c) reducesTo_S64x188_S_d0_1 h_S_ shapeCasts_S_S1
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v11 (Pipeline.mem_restRefs_of main_v11 (by decide) (by decide))).trans (result_eq m c),
      ((h c).1 1).trans (((dats m 0 c).arrAt_in 1 rfl _).trans ((A_eq m c 1).trans (V_main_arg0 m c))),
      ((h c).1 2).trans (((dats m 0 c).arrAt_in 2 rfl _).trans ((A_eq m c 2).trans (V_main_arg1 m c))),
      ((h c).2 main_arg2 (Pipeline.mem_restRefs_of main_arg2 (by decide) (by decide))).trans
        (W_main_arg2 m (dats m) c)⟩)
    (run_main m ρ)

end Cert.PairRank.Kernel

end
-- ==== Proof.RefRead.lean ====
/-
  The reference is the same matrix: at (b, l) jnp's `mask · sum(y · exp(s)) · sum((1 - y) · exp(-s))` is the mask
  entry times the positive factor times the negative factor of the specification — the host's sums start from the
  zero literal, which adds nothing, and its `exp` and `negate` are the extended reals' own.
-/
import proofs.«179755_j40346922779396_1_alg».proof.Proof.Gen.ReferenceIdeal.Read
import proofs.«179755_j40346922779396_1_alg».proof.Proof.Spec
import proofs.«179755_j40346922779396_1_alg».proof.Proof.Closing

noncomputable section

open Idealize.ShloMosaic Idealize.ShloMosaic.ValueIdx
open scoped BigOperators

namespace Cert.PairRank.Reference

open Cert.ReferenceIdeal Cert.ReferenceIdeal.Gen Cert.ReferenceIdeal.Read Cert.PairRank

variable (x0 : FVec Ideal SBLV .f32) (x1 : IVec SBLV 32) (x2 : IVec ⟨1, ![64]⟩ 32)

/-- The entries the host's vocabulary sums visit at (b, l): (b, l, k) for each vocabulary entry k. -/
theorem visit_pos (i : S64x188.Idx) (k : Fin 8192) :
    idx_main_v12 i k = ix3 (rowOf (i 0).val) (posOf (i 1).val) (vocOf k.val) :=
  funext fun a => Fin.ext (by
    match a with
    | ⟨0, _⟩ => exact (Nat.mod_eq_of_lt (i 0).isLt).symm
    | ⟨1, _⟩ => exact (Nat.mod_eq_of_lt (i 1).isLt).symm
    | ⟨2, _⟩ => exact (Nat.mod_eq_of_lt k.isLt).symm)
theorem visit_neg (i : S64x188.Idx) (k : Fin 8192) :
    idx_main_v18 i k = ix3 (rowOf (i 0).val) (posOf (i 1).val) (vocOf k.val) :=
  funext fun a => Fin.ext (by
    match a with
    | ⟨0, _⟩ => exact (Nat.mod_eq_of_lt (i 0).isLt).symm
    | ⟨1, _⟩ => exact (Nat.mod_eq_of_lt (i 1).isLt).symm
    | ⟨2, _⟩ => exact (Nat.mod_eq_of_lt k.isLt).symm)

/-- jnp's positive sum at (b, l) is the positive factor. -/
theorem pos_ref (i : S64x188.Idx) :
    val_main_v12 (F := Ideal) x0 x1 i = posSum x0 x1 (i 0).val (i 1).val := by
  rw [val_main_v12_apply]
  show Ideal.ofBits .f32 0x00000000#32 + _ = _
  rw [Ideal.ofBits_zero_f32, zero_add]
  refine Finset.sum_congr rfl fun k _ => ?_
  rw [val_main_v11_apply, val_main_v9_apply, val_main_v8_apply, val_main_v7_apply, val_main_c_apply,
    val_main_v10_apply, visit_pos]
  rfl

/-- jnp's negative sum at (b, l) is the negative factor. -/
theorem neg_ref (i : S64x188.Idx) :
    val_main_v18 (F := Ideal) x0 x1 i = negSum x0 x1 (i 0).val (i 1).val := by
  rw [val_main_v18_apply]
  show Ideal.ofBits .f32 0x00000000#32 + _ = _
  rw [Ideal.ofBits_zero_f32, zero_add]
  refine Finset.sum_congr rfl fun k _ => ?_
  rw [val_main_v17_apply, val_main_v14_apply, val_main_v13_apply, val_main_cst_0_apply, val_main_v9_apply,
    val_main_v8_apply, val_main_v7_apply, val_main_c_apply, val_main_v16_apply, val_main_v15_apply, visit_neg]
  rfl

/-- The matrix jnp sums is the specification's, over jnp's own mask. -/
theorem matrix_ref :
    val_main_v20 (F := Ideal) x0 x1 x2 = pairProd x0 x1 (val_main_v6 (F := Ideal) x2) := by
  funext i
  rw [val_main_v20_apply, val_main_v19_apply, pos_ref, neg_ref]
  rfl

/-- The reference's result is the closing operations applied to that matrix. -/
theorem result_ref :
    val_main_v24 (F := Ideal) x0 x1 x2
      = closing (F := Ideal) (pairProd x0 x1 (val_main_v6 (F := Ideal) x2)) reducesTo_S64x188_S_d0_1 h_S_ shapeCasts_S_S1 := by
  rw [← matrix_ref]
  rfl

end Cert.PairRank.Reference

end
-- ==== Proof.lean ====
/-
  The pairwise ranking loss: the tiled kernel against jnp.

  Both programs compute, from the scores `s`, the label words and the lengths, the matrix
  `M(b, l) = mask(b, l) · (∑_v y_v · e^(s_v)) · (∑_v (1 - y_v) · e^(-s_v))` (`y` the indicator of a non-zero label word,
  the sums over the 8192 vocabulary entries of row (b, l)), and then the same closing operations: the sum of `M`,
  times 8192, divided by 64. The mask comes from the same host operations on the lengths in both. The reference sums
  each row's vocabulary at once; the kernel walks it in 16 tiles of 512, carrying the two partial sums between grid
  points and storing `M`'s block at each batch tile's last vocabulary tile. On the extended reals addition is
  commutative and associative, so the tiled sums are the whole sums for all inputs, infinite ones included: the
  precondition is not used for the values.

  The three frames are the generated ones (the reference's is its generated run with the result dropped); the ideal
  pass rewrote nothing, so the idealization claim is trivial.
-/
import proofs.«179755_j40346922779396_1_alg».proof.Defs
import proofs.«179755_j40346922779396_1_alg».proof.Proof.Gen.Kernel
import proofs.«179755_j40346922779396_1_alg».proof.Proof.Gen.Kernel.Frame
import proofs.«179755_j40346922779396_1_alg».proof.Proof.Gen.KernelIdeal
import proofs.«179755_j40346922779396_1_alg».proof.Proof.Gen.KernelIdeal.Frame
import proofs.«179755_j40346922779396_1_alg».proof.Proof.Gen.ReferenceIdeal
import proofs.«179755_j40346922779396_1_alg».proof.Proof.Gen.Pre_finite_inputs
import proofs.«179755_j40346922779396_1_alg».proof.Proof.Gen.ReferenceIdeal.Run
import proofs.«179755_j40346922779396_1_alg».proof.Proof.Gen.ReferenceIdeal.Read
import proofs.«179755_j40346922779396_1_alg».proof.Proof.Final
import proofs.«179755_j40346922779396_1_alg».proof.Proof.RefRead
import Idealize.ShloMosaic.Adequacy
import Idealize.ShloMosaic.Init

noncomputable section

namespace Cert.Proof

open Idealize.ShloMosaic Idealize.SL.Sem Cert.PairRank

/-- The mask the kernel's host lines compute before the region is the reference's mask of the same lengths: the same
    operations (the positions 0 … 187 against the row's length, compared signed, as 0 or 1). -/
theorem mask_same (m : (ℓ : Loc Cert.KernelIdeal.nD Cert.KernelIdeal.τ Cert.KernelIdeal.sig) → Buf (Elt Ideal) ℓ)
    (c : Dev Cert.KernelIdeal.nD) :
    Cert.PairRank.Kernel.mask m c
      = Cert.ReferenceIdeal.Read.val_main_v6 (F := Ideal)
          (m ((c.tc : Thread Cert.KernelIdeal.nD Cert.KernelIdeal.τ).loc Cert.KernelIdeal.main_arg2)) := by
  show StableHlo.after Cert.KernelIdeal.Gen.hostOps0 (fun b => m (c, b)) (Proc.devRef .tc Cert.KernelIdeal.main_v6) = _
  after_results
  rfl

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- At the ideal instance the kernel's result ends at the closing operations of the matrix of masked products (the
    kernel's run, read) and the reference's at the same operations of the same matrix of arguments that agree. -/
theorem algebraic : Cert.algebraic_KernelIdeal_ReferenceIdeal := by
  intro m ρ m' ρ' _ hagree
  refine ⟨_, Cert.PairRank.Kernel.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v24_eq, Cert.PairRank.Reference.result_ref, (hagree c).1, (hagree c).2.1,
    (hagree c).2.2, ← mask_same m c]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
